-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x16 : Shape := ⟨2, ![4194304, 16]⟩
abbrev S4194304 : Shape := ⟨1, ![4194304]⟩
abbrev S_ : Shape := ⟨0, ![]⟩

class Facts : Prop where
  bcast_S_S4194304x16 : S_.BroadcastsInDim S4194304x16 (![] : Fin 0 → Fin S4194304x16.rank)
  reducesTo_S4194304x16_S_d0_1 : S4194304x16.ReducesTo [0, 1] S_
  h_S_ : 0 < S_.numel

variable [Facts]

def fn {F : FTy → Type} [FloatOps F] (main_arg0 : FVec F S4194304x16 .f32) (main_arg1 : IVec S4194304 32) (main_arg2 : IVec S4194304 32) : IVec S_ 1 :=
  let main_v0 : FVec F S4194304x16 .f32 := Host.absf main_arg0
  let main_cst : FVec F S_ .f32 := constant S_ .f32 0x7F800000#32
  let main_v1 : FVec F S4194304x16 .f32 := broadcastInDim S4194304x16 ![] bcast_S_S4194304x16 main_cst
  let main_v2 : IVec S4194304x16 1 := cmpf .olt main_v0 main_v1
  let main_c : IVec S_ 1 := constantI S_ 1 1#1
  let main_v3 : IVec S_ 1 := (fun x v => Host.reduce IntOp.andi x v reducesTo_S4194304x16_S_d0_1 h_S_) main_v2 main_c
  main_v3
-- ==== Kernel.lean ====
abbrev S4194304x16 : Shape := ⟨2, ![4194304, 16]⟩
abbrev S4194304 : Shape := ⟨1, ![4194304]⟩
abbrev S4194304x1 : Shape := ⟨2, ![4194304, 1]⟩
abbrev S1x1 : Shape := ⟨2, ![1, 1]⟩
abbrev S4096x16 : Shape := ⟨2, ![4096, 16]⟩
abbrev S4096x1 : Shape := ⟨2, ![4096, 1]⟩
abbrev S4096 : Shape := ⟨1, ![4096]⟩
abbrev S1 : Shape := ⟨1, ![1]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S4194304x16, .f32⟩
  | .hbm, ⟨1, _⟩ => ⟨S4194304, .i32⟩
  | .hbm, ⟨2, _⟩ => ⟨S4194304, .i32⟩
  | .hbm, ⟨3, _⟩ => ⟨S4194304x1, .i32⟩
  | .hbm, ⟨4, _⟩ => ⟨S4194304x1, .i32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S4096x16, .f32⟩
  | .local _ .vmem, ⟨1, _⟩ => ⟨S4096x16, .f32⟩
  | .local _ .vmem, ⟨2, _⟩ => ⟨S4096x1, .i32⟩
  | .local _ .vmem, ⟨3, _⟩ => ⟨S4096x1, .i32⟩
  | .local _ .vmem, ⟨4, _⟩ => ⟨S4096x1, .i32⟩
  | .local _ .vmem, ⟨5, _⟩ => ⟨S4096x1, .i32⟩
  | .local _ .vmem, ⟨6, _⟩ => ⟨S1x1, .f32⟩
  | .local _ .vmem, ⟨7, _⟩ => ⟨S1x1, .f32⟩
  | _, _ => ⟨S4194304x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S4194304_S4194304x1 : S4194304.ShapeCasts S4194304x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x16_S4096x16_0_0 : ∀ a, (![0, 0] : Fin 2 → Nat) a + S4096x16.size a ≤ S4096x16.size a
  h_S4096x16 : 0 < S4096x16.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  reduces_S4096x16_S4096 : S4096x16.Reduces [1] S4096
  shapeCasts_S4096_S4096x1 : S4096.ShapeCasts S4096x1
  slices_S4096x16_o0_0_S4096x1 : S4096x16.Slices ![0, 0] S4096x1
  slices_S4096x16_o0_1_S4096x1 : S4096x16.Slices ![0, 1] S4096x1
  reduces_S4096x1_S1 : S4096x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S4194304x16.size a
  hwx0_0 : ∀ i : grid0.Coords, EltTy.bits .f32 = 32 ∨ (Rect.block (s := S4194304x16) S4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S4194304x1.size a
  hwx0_1 : ∀ i : grid0.Coords, EltTy.bits .i32 = 32 ∨ (Rect.block (s := S4194304x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S4194304x1.size a
  hwx0_2 : ∀ i : grid0.Coords, EltTy.bits .i32 = 32 ∨ (Rect.block (s := S4194304x1) S4096x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x16 : Shape := ⟨2, ![4194304, 16]⟩
abbrev S4194304 : Shape := ⟨1, ![4194304]⟩
abbrev S_ : Shape := ⟨0, ![]⟩
abbrev S4194304x1 : Shape := ⟨2, ![4194304, 1]⟩

abbrev nBuf : Space → Nat
  | .hbm => 57
  | .vmem => 0
  | .smem => 0
  | _ => 0

abbrev bufTy : (tb : Table) → Fin (tcTables nBuf tb) → BufTy
  | .hbm, ⟨0, _⟩ => ⟨S4194304x16, .f32⟩
  | .hbm, ⟨1, _⟩ => ⟨S4194304, .i32⟩
  | .hbm, ⟨2, _⟩ => ⟨S4194304, .i32⟩
  | .hbm, ⟨3, _⟩ => ⟨S_, .f32⟩
  | .hbm, ⟨4, _⟩ => ⟨S4194304x16, .f32⟩
  | .hbm, ⟨5, _⟩ => ⟨S4194304x16, .f32⟩
  | .hbm, ⟨6, _⟩ => ⟨S_, .f32⟩
  | .hbm, ⟨7, _⟩ => ⟨S4194304x16, .f32⟩
  | .hbm, ⟨8, _⟩ => ⟨S4194304x16, .f32⟩
  | .hbm, ⟨9, _⟩ => ⟨S_, .f32⟩
  | .hbm, ⟨10, _⟩ => ⟨S4194304, .f32⟩
  | .hbm, ⟨11, _⟩ => ⟨S4194304x1, .f32⟩
  | .hbm, ⟨12, _⟩ => ⟨S4194304, .f32⟩
  | .hbm, ⟨13, _⟩ => ⟨S4194304, .f32⟩
  | .hbm, ⟨14, _⟩ => ⟨S4194304x1, .f32⟩
  | .hbm, ⟨15, _⟩ => ⟨S4194304, .f32⟩
  | .hbm, ⟨16, _⟩ => ⟨S4194304, .f32⟩
  | .hbm, ⟨17, _⟩ => ⟨S4194304x1, .f32⟩
  | .hbm, ⟨18, _⟩ => ⟨S4194304, .f32⟩
  | .hbm, ⟨19, _⟩ => ⟨S4194304, .f32⟩
  | .hbm, ⟨20, _⟩ => ⟨S4194304x1, .f32⟩
  | .hbm, ⟨21, _⟩ => ⟨S4194304, .f32⟩
  | .hbm, ⟨22, _⟩ => ⟨S4194304, .f32⟩
  | .hbm, ⟨23, _⟩ => ⟨S_, .i32⟩
  | .hbm, ⟨24, _⟩ => ⟨S4194304, .i32⟩
  | .hbm, ⟨25, _⟩ => ⟨S4194304, .i1⟩
  | .hbm, ⟨26, _⟩ => ⟨S4194304x1, .f32⟩
  | .hbm, ⟨27, _⟩ => ⟨S4194304, .f32⟩
  | .hbm, ⟨28, _⟩ => ⟨S_, .i32⟩
  | .hbm, ⟨29, _⟩ => ⟨S4194304, .i32⟩
  | .hbm, ⟨30, _⟩ => ⟨S4194304, .i1⟩
  | .hbm, ⟨31, _⟩ => ⟨S4194304x1, .f32⟩
  | .hbm, ⟨32, _⟩ => ⟨S4194304, .f32⟩
  | .hbm, ⟨33, _⟩ => ⟨S_, .f32⟩
  | .hbm, ⟨34, _⟩ => ⟨S_, .f32⟩
  | .hbm, ⟨35, _⟩ => ⟨S4194304, .f32⟩
  | .hbm, ⟨36, _⟩ => ⟨S4194304, .f32⟩
  | .hbm, ⟨37, _⟩ => ⟨S4194304, .f32⟩
  | .hbm, ⟨38, _⟩ => ⟨S_, .i32⟩
  | .hbm, ⟨39, _⟩ => ⟨S4194304, .i32⟩
  | .hbm, ⟨40, _⟩ => ⟨S4194304, .i1⟩
  | .hbm, ⟨41, _⟩ => ⟨S_, .i32⟩
  | .hbm, ⟨42, _⟩ => ⟨S4194304, .i32⟩
  | .hbm, ⟨43, _⟩ => ⟨S4194304, .i1⟩
  | .hbm, ⟨44, _⟩ => ⟨S_, .i32⟩
  | .hbm, ⟨45, _⟩ => ⟨S4194304, .i32⟩
  | .hbm, ⟨46, _⟩ => ⟨S4194304, .i1⟩
  | .hbm, ⟨47, _⟩ => ⟨S_, .f32⟩
  | .hbm, ⟨48, _⟩ => ⟨S_, .f32⟩
  | .hbm, ⟨49, _⟩ => ⟨S4194304, .f32⟩
  | .hbm, ⟨50, _⟩ => ⟨S4194304, .f32⟩
  | .hbm, ⟨51, _⟩ => ⟨S4194304, .f32⟩
  | .hbm, ⟨52, _⟩ => ⟨S4194304, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S4194304x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_call3_v0 : Ref sig .tc := ⟨.hbm, 48, rfl⟩
abbrev main_call3_v1 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩

abbrev nD : Nat := 1
abbrev τ : Topo := Topo.v7x

variable {F : FTy → Type} [FloatOps F]

class Facts₀ : Prop where
  bcast_S_S4194304x16 : S_.BroadcastsInDim S4194304x16 (![] : Fin 0 → Fin S4194304x16.rank)
  reducesTo_S4194304x16_S4194304_d1 : S4194304x16.ReducesTo [1] S4194304
  h_S_ : 0 < S_.numel
  slices_S4194304x16_S4194304x1_0_0 : S4194304x16.Slices ![0, 0] S4194304x1
  shapeCasts_S4194304x1_S4194304 : S4194304x1.ShapeCasts S4194304
  slices_S4194304x16_S4194304x1_0_1 : S4194304x16.Slices ![0, 1] S4194304x1
  bcast_S_S4194304 : S_.BroadcastsInDim S4194304 (![] : Fin 0 → Fin S4194304.rank)
  reducesTo_S4194304_S_d0 : S4194304.ReducesTo [0] S_

variable [Facts₀]

class Facts : Prop extends Facts₀ where

variable [Facts]
-- ==== Proof.PerSample.lean ====
/-
  The loss being averaged, stated once, with no program in sight.

  One sample is a row d of 16 distances with a doctor's label and a real label (32-bit words). Against the unit margin
  the hinge of a distance is max(1 − d, 0). With H the sum of the row's sixteen hinges, the sample's loss is
    doctor = 0 :  (d₀ + H) − hinge d₀          (the distance to class 0, the other classes' hinges)
    doctor = 1 :  (d₁ + H) − hinge d₁
    doctor = 2 :  hinge d₁ if real = 0, hinge d₀ if real = 1, else 0
    otherwise  :  0.
  The result is the sum of the samples' losses over the batch divided by the batch size, all on the extended reals,
  where a float operation is the exact one. Nothing here needs the distances finite: both programs apply the same
  operations to each sample, and they differ only in the order in which the batch is summed.
-/
import Idealize.ShloMosaic.PureOps.Ideal
import Idealize.ShloMosaic.Lib.ValueIdx

noncomputable section

namespace Cert.Loss

open Idealize.ShloMosaic Idealize.ShloMosaic.ValueIdx

/-- The hinge of one distance against the unit margin, max(1 − d, 0); the words are f32's 1.0 and 0.0. -/
def hinge (d : EReal) : EReal :=
  max (Ideal.ofBits .f32 0x3F800000#32 - d) (Ideal.ofBits .f32 0x00000000#32)

/-- One sample's loss from its row of distances and its two labels. -/
def sample (d : Fin 16 → EReal) (doc real : BitVec 32) : EReal :=
  Scalar.select (IntOp.cmpi .eq doc 0#32) ((d 0 + (∑ k : Fin 16, hinge (d k))) - hinge (d 0))
    (Scalar.select (IntOp.cmpi .eq doc 1#32) ((d 1 + (∑ k : Fin 16, hinge (d k))) - hinge (d 1))
      (Scalar.select (IntOp.cmpi .eq doc 2#32)
        (Scalar.select (IntOp.cmpi .eq real 0#32) (hinge (d 1))
          (Scalar.select (IntOp.cmpi .eq real 1#32) (hinge (d 0)) (Ideal.ofBits .f32 0x00000000#32)))
        (Ideal.ofBits .f32 0x00000000#32)))

/-- The batch's total: the sum over its 4,194,304 samples, sample n read off row n of the distances and entry n of
    each label vector. -/
def total (x : (⟨2, ![4194304, 16]⟩ : Shape).Idx → EReal) (doc real : (⟨1, ![4194304]⟩ : Shape).Idx → BitVec 32) : EReal :=
  ∑ n : Fin 4194304, sample (fun k => x (ix2 n k)) (doc (ix1 n)) (real (ix1 n))

/-- The mean loss, as the scalar array both programs return: the total divided by the batch size (the word is f32's
    4194304.0; the quotient is the ideal instance's). -/
def meanLoss (x : (⟨2, ![4194304, 16]⟩ : Shape).Idx → EReal) (doc real : (⟨1, ![4194304]⟩ : Shape).Idx → BitVec 32) :
    (⟨0, ![]⟩ : Shape).Idx → EReal :=
  fun _ => Ideal.div (total x doc real) (Ideal.ofBits .f32 0x4A800000#32)

end Cert.Loss

end
-- ==== Proof.LibVecIdx.lean ====
/-
  A rank-1 index set is its one coordinate's range: the indices of a vector [n] correspond to the numbers below n, and a
  sum over the vector's indices is the sum over its coordinate. (The rank-2 twin is the library's `sum_idx2`.)
-/
import Idealize.ShloMosaic.Lib.ValueIdx

namespace Cert.LibVecIdx

open Idealize.ShloMosaic Idealize.ShloMosaic.ValueIdx

/-- The numbers below `n` are the indices of a vector of `n` entries. -/
def idxEquiv1 {n : Nat} : Fin n ≃ (⟨1, ![n]⟩ : Shape).Idx where
  toFun := ix1
  invFun j := j 0
  left_inv _ := rfl
  right_inv j := (eq_ix1 j).symm

/-- A sum over a vector's indices is the sum over its coordinate. -/
theorem sum_idx1 {M : Type*} [AddCommMonoid M] {n : Nat} (f : (⟨1, ![n]⟩ : Shape).Idx → M) :
    ∑ j, f j = ∑ a : Fin n, f (ix1 a) :=
  (Equiv.sum_comp (idxEquiv1 (n := n)) f).symm

end Cert.LibVecIdx
-- ==== Proof.ReferenceMean.lean ====
/-
  The reference computes the mean loss. Stage by stage over the generated reading of its run: relu(1 − x) is the array
  of hinges; its sum along a row is the row's H; column 0 and column 1 of the distances and of the hinges, each cut as
  a [B, 1] slice and reshaped to a vector, are d₀, d₁, hinge d₀, hinge d₁ of each row; the nested jnp.where on the two
  label vectors is the sample's loss; the sum over the batch from the initial value 0 is the total; and the result is
  its quotient by 4194304.0.
-/
import proofs.«152789_j16913581212137_2_alg».proof.Proof.Gen.ReferenceIdeal.Read
import proofs.«152789_j16913581212137_2_alg».proof.Proof.PerSample
import proofs.«152789_j16913581212137_2_alg».proof.Proof.LibVecIdx
import Idealize.ShloMosaic.Lib.ValueIdx
import Idealize.ShloMosaic.PureOps.Ideal.Laws

noncomputable section

namespace Cert.Loss.Reference

open Cert.ReferenceIdeal Cert.ReferenceIdeal.Read Idealize.ShloMosaic Idealize.ShloMosaic.ValueIdx

variable (x0 : (⟨S4194304x16, .f32⟩ : BufTy).Contents (Elt Ideal))
variable (x1 x2 : (⟨S4194304, .i32⟩ : BufTy).Contents (Elt Ideal))

/-- relu(1 − x) at an entry is the hinge of that distance. -/
theorem hinges_apply (i : S4194304x16.Idx) : val_main_v2 (F := Ideal) x0 i = hinge (x0 i) := by
  rw [val_main_v2_apply, val_main_v1_apply, val_main_v0_apply, val_main_cst_apply, val_main_call0_v0_apply,
    val_main_call0_cst_apply]
  rfl

/-- The sum of relu(1 − x) along row n, from the initial value 0, is the row's sum of hinges. -/
theorem hingeSum_apply (n : Fin 4194304) :
    val_main_v3 (F := Ideal) x0 (ix1 n) = ∑ k : Fin 16, hinge (x0 (ix2 n k)) := by
  rw [val_main_v3_apply, val_main_cst_0_apply]
  show Ideal.ofBits .f32 0x00000000#32 + _ = _
  rw [Ideal.ofBits_zero_f32, zero_add]
  refine Finset.sum_congr rfl fun k _ => ?_
  rw [hinges_apply]
  refine congrArg (fun j => hinge (x0 j)) ?_
  funext a
  match a with
  | ⟨0, _⟩ => rfl
  | ⟨1, _⟩ => rfl

/-- Column 0 of the distances, as a vector: entry n is d₀ of row n. -/
theorem d0_apply (n : Fin 4194304) : val_main_v5 (F := Ideal) x0 (ix1 n) = x0 (ix2 n (0 : Fin 16)) := by
  rw [val_main_v5_apply, val_main_v4_apply]
  refine congrArg x0 ?_
  funext a
  match a with
  | ⟨0, _⟩ => exact Fin.ext (Nat.div_one _)
  | ⟨1, _⟩ => rfl

/-- Column 1 of the distances, as a vector: entry n is d₁ of row n. -/
theorem d1_apply (n : Fin 4194304) : val_main_v11 (F := Ideal) x0 (ix1 n) = x0 (ix2 n (1 : Fin 16)) := by
  rw [val_main_v11_apply, val_main_v10_apply]
  refine congrArg x0 ?_
  funext a
  match a with
  | ⟨0, _⟩ => exact Fin.ext (Nat.div_one _)
  | ⟨1, _⟩ => rfl

/-- Column 0 of the hinges (its first cut, used by the doctor-0 branch). -/
theorem h0_apply (n : Fin 4194304) : val_main_v8 (F := Ideal) x0 (ix1 n) = hinge (x0 (ix2 n (0 : Fin 16))) := by
  rw [val_main_v8_apply, val_main_v7_apply, hinges_apply]
  refine congrArg (fun j => hinge (x0 j)) ?_
  funext a
  match a with
  | ⟨0, _⟩ => exact Fin.ext (Nat.div_one _)
  | ⟨1, _⟩ => rfl

/-- Column 1 of the hinges (its first cut, used by the doctor-1 branch). -/
theorem h1_apply (n : Fin 4194304) : val_main_v14 (F := Ideal) x0 (ix1 n) = hinge (x0 (ix2 n (1 : Fin 16))) := by
  rw [val_main_v14_apply, val_main_v13_apply, hinges_apply]
  refine congrArg (fun j => hinge (x0 j)) ?_
  funext a
  match a with
  | ⟨0, _⟩ => exact Fin.ext (Nat.div_one _)
  | ⟨1, _⟩ => rfl

/-- Column 1 of the hinges, cut again for the unknown-doctor branch. -/
theorem h1'_apply (n : Fin 4194304) : val_main_v19 (F := Ideal) x0 (ix1 n) = hinge (x0 (ix2 n (1 : Fin 16))) := by
  rw [val_main_v19_apply, val_main_v18_apply, hinges_apply]
  refine congrArg (fun j => hinge (x0 j)) ?_
  funext a
  match a with
  | ⟨0, _⟩ => exact Fin.ext (Nat.div_one _)
  | ⟨1, _⟩ => rfl

/-- Column 0 of the hinges, cut again for the unknown-doctor branch. -/
theorem h0'_apply (n : Fin 4194304) : val_main_v23 (F := Ideal) x0 (ix1 n) = hinge (x0 (ix2 n (0 : Fin 16))) := by
  rw [val_main_v23_apply, val_main_v22_apply, hinges_apply]
  refine congrArg (fun j => hinge (x0 j)) ?_
  funext a
  match a with
  | ⟨0, _⟩ => exact Fin.ext (Nat.div_one _)
  | ⟨1, _⟩ => rfl

/-- The nested jnp.where at entry n is sample n's loss. -/
theorem perSample_apply (n : Fin 4194304) :
    val_main_v34 (F := Ideal) x0 x1 x2 (ix1 n) = sample (fun k => x0 (ix2 n k)) (x1 (ix1 n)) (x2 (ix1 n)) := by
  rw [val_main_v34_apply, val_main_v33_apply, val_main_v32_apply, val_main_v25_apply, val_main_v24_apply,
    val_main_v27_apply, val_main_v29_apply, val_main_v31_apply, val_main_v17_apply, val_main_v21_apply,
    val_main_v26_apply, val_main_v28_apply, val_main_v30_apply, val_main_v16_apply, val_main_v20_apply,
    val_main_c_3_apply, val_main_c_4_apply, val_main_c_5_apply, val_main_c_apply, val_main_c_1_apply,
    val_main_call3_v1_apply, val_main_call3_v0_apply, val_main_cst_6_apply,
    val_main_call1_v1_apply, val_main_call1_v0_apply, val_main_cst_2_apply,
    val_main_v9_apply, val_main_v6_apply, val_main_v15_apply, val_main_v12_apply,
    d0_apply, d1_apply, h0_apply, h1_apply, h0'_apply, h1'_apply, hingeSum_apply]
  rfl

/-- The reference's result is the mean loss of its arguments. -/
theorem result_eq : val_main_v36 (F := Ideal) x0 x1 x2 = meanLoss x0 x1 x2 := by
  funext i
  rw [val_main_v36_apply, val_main_v35_apply, val_main_cst_8_apply, val_main_cst_7_apply]
  show Ideal.div (Ideal.ofBits .f32 0x00000000#32 + _) (Ideal.ofBits .f32 0x4A800000#32) = _
  rw [Ideal.ofBits_zero_f32, zero_add, Cert.LibVecIdx.sum_idx1]
  unfold meanLoss total
  refine congrArg (fun s => Ideal.div s (Ideal.ofBits .f32 0x4A800000#32)) ?_
  exact Finset.sum_congr rfl fun n _ => perSample_apply x0 x1 x2 n

end Cert.Loss.Reference

end
-- ==== Proof.PointValues.lean ====
/-
  What one grid point leaves behind, as values. The body keeps a 1×1 accumulator in scratch: at the grid's first point
  it stores the zero block there, then at every point it adds the block's total to what the accumulator holds, stores
  that back, and copies the accumulator to the 1×1 output block. So after a point both the accumulator and the output
  block hold
      (what the accumulator held before) + (this block's total),
  with "before" the zero block at the first point and what the previous point left at every later one. Here the two
  are named by the body's own arithmetic: `k0_pay3` is the per-sample vector of a block, `k0_pay1 v prev` adds the
  column sum of `v` to `prev`, `k0_pay2` is the zero block. The stores and loads all go through whole 1×1 or
  whole-block rectangles at offset zero, so a load reads exactly what the last store left.
-/
import proofs.«152789_j16913581212137_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.Loss.Kernel

open Cert.KernelIdeal Cert.KernelIdeal.Gen

variable {F : FTy → Type} [FloatOps F]

/-- The offsets of every rectangle the body uses are zero on both axes. -/
theorem offs_zero : (![0, 0] : Fin 2 → Nat) = fun _ => 0 := funext fun a => by fin_cases a <;> rfl

/-- First point, the accumulator: zeroed, read back, the block's total added. -/
theorem acc_first (c : Dev nD) (i : grid0.Coords) (a1 : Memref sig .tc .vmem S4096x16 .f32) (h1 : a1.IsWhole)
    (a2 : Memref sig .tc .vmem S4096x1 .i32) (h2 : a2.IsWhole) (a3 : Memref sig .tc .vmem S4096x1 .i32) (h3 : a3.IsWhole)
    (a4 : Memref sig .tc .vmem S1x1 .f32) (h4 : a4.IsWhole) (a5 : Memref sig .tc .vmem S1x1 .f32) (h5 : a5.IsWhole)
    (hc : cond0_0 i) (x0 : Vec F S4096x16 .f32) (x1 x2 : Vec F S4096x1 .i32) :
    sout0_A_0 c i a1 h1 a2 h2 a3 h3 a4 h4 a5 h5 hc x0 x1 x2 = k0_pay1 (k0_pay3 x0 x1 x2) (k0_pay2 (F := F)) := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_cons_unit_zero (S := S1x1) offs_zero, View.readCov_unit_zero (S := S1x1) _ offs_zero]
  simp only [View.readAt_eq_ld, h1.read_unread, h2.read_unread, h3.read_unread,
    View.ld_unit_zero (S := S4096x16) offs_zero, View.ld_unit_zero (S := S4096x1) offs_zero]

/-- First point, the output block: a copy of the accumulator just stored. -/
theorem out_first (c : Dev nD) (i : grid0.Coords) (a1 : Memref sig .tc .vmem S4096x16 .f32) (h1 : a1.IsWhole)
    (a2 : Memref sig .tc .vmem S4096x1 .i32) (h2 : a2.IsWhole) (a3 : Memref sig .tc .vmem S4096x1 .i32) (h3 : a3.IsWhole)
    (a4 : Memref sig .tc .vmem S1x1 .f32) (h4 : a4.IsWhole) (a5 : Memref sig .tc .vmem S1x1 .f32) (h5 : a5.IsWhole)
    (hc : cond0_0 i) (x0 : Vec F S4096x16 .f32) (x1 x2 : Vec F S4096x1 .i32) :
    out0_A_3 c i a1 h1 a2 h2 a3 h3 a4 h4 a5 h5 hc x0 x1 x2 = k0_pay1 (k0_pay3 x0 x1 x2) (k0_pay2 (F := F)) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero (S := S1x1) offs_zero, View.readCov_cons_toLoadRect,
    View.readCov_unit_zero (S := S1x1) _ offs_zero]
  simp only [View.readAt_eq_ld, h1.read_unread, h2.read_unread, h3.read_unread,
    View.ld_unit_zero (S := S4096x16) offs_zero, View.ld_unit_zero (S := S4096x1) offs_zero]

/-- A later point, the accumulator: what the point before left, plus the block's total. -/
theorem acc_later (c : Dev nD) (i : grid0.Coords) (a1 : Memref sig .tc .vmem S4096x16 .f32) (h1 : a1.IsWhole)
    (a2 : Memref sig .tc .vmem S4096x1 .i32) (h2 : a2.IsWhole) (a3 : Memref sig .tc .vmem S4096x1 .i32) (h3 : a3.IsWhole)
    (a4 : Memref sig .tc .vmem S1x1 .f32) (h4 : a4.IsWhole) (a5 : Memref sig .tc .vmem S1x1 .f32) (h5 : a5.IsWhole)
    (hc : ¬cond0_0 i) (x0 : Vec F S4096x16 .f32) (x1 x2 : Vec F S4096x1 .i32) (xs0 : Vec F S1x1 .f32) :
    sout0_B_0 c i a1 h1 a2 h2 a3 h3 a4 h4 a5 h5 hc x0 x1 x2 xs0 = k0_pay1 (k0_pay3 x0 x1 x2) xs0 := by
  unfold sout0_B_0
  rw [View.read_writes_eq_canon _ _ _ (scover0_B_0 c i a1 h1 a2 h2 a3 h3 a4 h4 a5 h5 hc x0 x1 x2 xs0)]
  unfold kernelRun0_B
  dsimp only
  sl_unfold_words
  rw [View.canon_unit_zero (S := S1x1) offs_zero]
  simp only [View.readAt_eq_ld, h1.read_unread, h2.read_unread, h3.read_unread, h5.read_unread,
    View.ld_unit_zero (S := S4096x16) offs_zero, View.ld_unit_zero (S := S4096x1) offs_zero,
    View.ld_unit_zero (S := S1x1) offs_zero]

/-- A later point, the output block: a copy of the accumulator just stored. -/
theorem out_later (c : Dev nD) (i : grid0.Coords) (a1 : Memref sig .tc .vmem S4096x16 .f32) (h1 : a1.IsWhole)
    (a2 : Memref sig .tc .vmem S4096x1 .i32) (h2 : a2.IsWhole) (a3 : Memref sig .tc .vmem S4096x1 .i32) (h3 : a3.IsWhole)
    (a4 : Memref sig .tc .vmem S1x1 .f32) (h4 : a4.IsWhole) (a5 : Memref sig .tc .vmem S1x1 .f32) (h5 : a5.IsWhole)
    (hc : ¬cond0_0 i) (x0 : Vec F S4096x16 .f32) (x1 x2 : Vec F S4096x1 .i32) (xs0 : Vec F S1x1 .f32) :
    out0_B_3 c i a1 h1 a2 h2 a3 h3 a4 h4 a5 h5 hc x0 x1 x2 xs0 = k0_pay1 (k0_pay3 x0 x1 x2) xs0 := by
  unfold out0_B_3
  rw [View.read_writes_eq_canon _ _ _ (cover0_B_3 c i a1 h1 a2 h2 a3 h3 a4 h4 a5 h5 hc x0 x1 x2 xs0)]
  unfold kernelRun0_B
  dsimp only
  sl_unfold_words
  rw [View.canon_unit_zero (S := S1x1) offs_zero, View.readCov_unit_zero (S := S1x1) _ offs_zero]
  simp only [View.readAt_eq_ld, h1.read_unread, h2.read_unread, h3.read_unread, h5.read_unread,
    View.ld_unit_zero (S := S4096x16) offs_zero, View.ld_unit_zero (S := S4096x1) offs_zero,
    View.ld_unit_zero (S := S1x1) offs_zero]

end Cert.Loss.Kernel

end
-- ==== Proof.LibOuterSum.lean ====
/-
  The two "keepdims" broadcasts of a pairwise table: for a matrix v of shape [A, B],
    v[:, :, None] broadcast to [A, B, C]  — entry (a, b, c) is v (a, b) — and
    v[:, None, :] broadcast to [A, C, B]  — entry (a, c, b) is v (a, b).
  A kernel writes each as a `vector.shape_cast` inserting the unit axis followed by a `vector.broadcast`; their sum is
  the outer sum s(a, i) + t(a, j) that a pairwise squared distance starts from. Generic in the extents.
  Also the column forms a `keepdims=True` reduction leaves behind: a vector [a] as a column [a, 1], a column [a, 1] as a
  row [1, a], and a column [a, 1] broadcast along its unit axis to [a, b].
-/
import Idealize.ShloMosaic.Lib.Pipeline.Value
import Idealize.ShloMosaic.Lib.ValueIdx

noncomputable section

namespace Cert.LibOuterSum

open Idealize.ShloMosaic Idealize.ShloMosaic.ValueIdx

variable {α : Type}

/-- `v[:, :, None]` broadcast along a new trailing axis. -/
theorem bcast_trailing_apply {A B C : Nat} (v : (⟨2, ![A, B]⟩ : Shape).Idx → α)
    (hc : (⟨2, ![A, B]⟩ : Shape).ShapeCasts ⟨3, ![A, B, 1]⟩)
    (hb : (⟨3, ![A, B, 1]⟩ : Shape).Broadcasts ⟨3, ![A, B, C]⟩) (a : Fin A) (b : Fin B) (c : Fin C) :
    broadcastTo ⟨3, ![A, B, C]⟩ (shapeCast ⟨3, ![A, B, 1]⟩ v hc) hb (ix3 a b c) = v (ix2 a b) := by
  rw [broadcastTo_apply _ hb (ix3 a b c) (ix3 a b (⟨0, Nat.one_pos⟩ : Fin 1)) (fun d => by
    match d with
    | ⟨0, _⟩ =>
      show a.val = if A = 1 then 0 else a.val
      split_ifs with h1
      · have := a.isLt; omega
      · rfl
    | ⟨1, _⟩ =>
      show b.val = if B = 1 then 0 else b.val
      split_ifs with h1
      · have := b.isLt; omega
      · rfl
    | ⟨2, _⟩ =>
      show (0 : Nat) = if (1 : Nat) = 1 then 0 else c.val
      rfl)]
  exact shapeCast_apply v hc _ (ix2 a b) (by
    rw [Shape.rowMajor_val_two, Shape.rowMajor_val_three]
    show a.val * B + b.val = (a.val * B + b.val) * 1 + 0
    ring)

/-- `v[:, None, :]` broadcast along a new middle axis. -/
theorem bcast_middle_apply {A B C : Nat} (v : (⟨2, ![A, B]⟩ : Shape).Idx → α)
    (hc : (⟨2, ![A, B]⟩ : Shape).ShapeCasts ⟨3, ![A, 1, B]⟩)
    (hb : (⟨3, ![A, 1, B]⟩ : Shape).Broadcasts ⟨3, ![A, C, B]⟩) (a : Fin A) (c : Fin C) (b : Fin B) :
    broadcastTo ⟨3, ![A, C, B]⟩ (shapeCast ⟨3, ![A, 1, B]⟩ v hc) hb (ix3 a c b) = v (ix2 a b) := by
  rw [broadcastTo_apply _ hb (ix3 a c b) (ix3 a (⟨0, Nat.one_pos⟩ : Fin 1) b) (fun d => by
    match d with
    | ⟨0, _⟩ =>
      show a.val = if A = 1 then 0 else a.val
      split_ifs with h1
      · have := a.isLt; omega
      · rfl
    | ⟨1, _⟩ =>
      show (0 : Nat) = if (1 : Nat) = 1 then 0 else c.val
      rfl
    | ⟨2, _⟩ =>
      show b.val = if B = 1 then 0 else b.val
      split_ifs with h1
      · have := b.isLt; omega
      · rfl)]
  exact shapeCast_apply v hc _ (ix2 a b) (by
    rw [Shape.rowMajor_val_two, Shape.rowMajor_val_three]
    show a.val * B + b.val = (a.val * 1 + 0) * B + b.val
    ring)

/-- A vector `[a]` cast to a column `[a, 1]`: entry (i, u) is the vector's entry i. -/
theorem col_of_vec_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]`: entry (u, i) is the column's entry (i, 0). -/
theorem row_of_col_apply {a : Nat} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (⟨0, Nat.one_pos⟩ : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along its unit axis to `[a, b]`: entry (i, j) is the column's entry (i, 0). -/
theorem bcast_col_apply {a b : Nat} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (⟨0, Nat.one_pos⟩ : Fin 1)) :=
  broadcastTo_apply x h (ix2 i j) (ix2 i (⟨0, Nat.one_pos⟩ : Fin 1)) (fun d => by
    match d with
    | ⟨0, _⟩ =>
      show i.val = if a = 1 then 0 else i.val
      split_ifs with h1
      · have := i.isLt; omega
      · rfl
    | ⟨1, _⟩ =>
      show (0 : Nat) = if (1 : Nat) = 1 then 0 else j.val
      rfl)

end Cert.LibOuterSum

end
-- ==== Proof.LibRowReduce.lean ====
/-
  Reductions over one axis of rank-2 and rank-3 arrays of extended reals, read at an index as a sum (or a maximum) over
  that axis's coordinate, for arrays of any extents; and a per-row statistic (a row's maximum, a row's sum) laid out as a
  column and repeated along the row, read at an entry. These are the layout steps of a row-wise softmax.
-/
import Idealize.ShloMosaic.PureOps.Ideal.Laws
import Idealize.ShloMosaic.Lib.ValueIdx
import Idealize.ShloMosaic.Lib.Pipeline.Value
import proofs.«152789_j16913581212137_2_alg».proof.Proof.LibOuterSum

noncomputable section

namespace Cert.LibRowReduce

open Idealize.ShloMosaic Idealize.ShloMosaic.ValueIdx

/-- The f32 word `0xFF800000` is `-∞`. -/
theorem ofBits_neg_inf_f32 : Ideal.ofBits .f32 0xFF800000#32 = (⊥ : EReal) := by
  simp [Ideal.ofBits, Ideal.ieee]

/-- Summing a rank-3 array over its last axis: entry (a, b) is the sum over c of the entries (a, b, c). -/
theorem sum_last3 {A B C : Nat} (v : FVec Ideal ⟨3, ![A, B, C]⟩ .f32)
    (h : (⟨3, ![A, B, C]⟩ : Shape).Reduces [2] ⟨2, ![A, B]⟩) (hφ : FKind.Formats FTy.f32)
    (hacc : (0x00000000#32 : BitVec 32) = 0x00000000#32) (a : Fin A) (b : Fin B) :
    multiReduction .add [2] ⟨2, ![A, B]⟩ v 0x00000000#32 h hφ hacc (ix2 a b) = ∑ k : Fin C, v (ix3 a b k) := by
  refine (Ideal.multiReduction_add_single v 0x00000000#32 h hφ hacc (ix2 a b)).trans ?_
  refine Finset.sum_congr rfl fun k _ => congrArg v ?_
  funext c
  apply Fin.ext
  match c with
  | ⟨0, _⟩ => rfl
  | ⟨1, _⟩ => rfl
  | ⟨2, _⟩ => rfl

/-- Summing a rank-3 array over its middle axis: entry (a, c) is the sum over b of the entries (a, b, c). -/
theorem sum_mid3 {A B C : Nat} (v : FVec Ideal ⟨3, ![A, B, C]⟩ .f32)
    (h : (⟨3, ![A, B, C]⟩ : Shape).Reduces [1] ⟨2, ![A, C]⟩) (hφ : FKind.Formats FTy.f32)
    (hacc : (0x00000000#32 : BitVec 32) = 0x00000000#32) (a : Fin A) (c : Fin C) :
    multiReduction .add [1] ⟨2, ![A, C]⟩ v 0x00000000#32 h hφ hacc (ix2 a c) = ∑ k : Fin B, v (ix3 a k c) := by
  refine (Ideal.multiReduction_add_single v 0x00000000#32 h hφ hacc (ix2 a c)).trans ?_
  refine Finset.sum_congr rfl fun k _ => congrArg v ?_
  funext d
  apply Fin.ext
  match d with
  | ⟨0, _⟩ => rfl
  | ⟨1, _⟩ => rfl
  | ⟨2, _⟩ => rfl

/-- Summing a matrix along its rows: entry a is the sum over b of the entries (a, b). -/
theorem sum_row2 {A B : Nat} (v : FVec Ideal ⟨2, ![A, B]⟩ .f32)
    (h : (⟨2, ![A, B]⟩ : Shape).Reduces [1] ⟨1, ![A]⟩) (hφ : FKind.Formats FTy.f32)
    (hacc : (0x00000000#32 : BitVec 32) = 0x00000000#32) (a : Fin A) :
    multiReduction .add [1] ⟨1, ![A]⟩ v 0x00000000#32 h hφ hacc (ix1 a) = ∑ k : Fin B, v (ix2 a k) := by
  refine (Ideal.multiReduction_add_single v 0x00000000#32 h hφ hacc (ix1 a)).trans ?_
  refine Finset.sum_congr rfl fun k _ => congrArg v ?_
  funext d
  apply Fin.ext
  match d with
  | ⟨0, _⟩ => rfl
  | ⟨1, _⟩ => rfl

/-- The maximum along the rows of a matrix, from `-∞`: entry a is the greatest of `-∞` and the entries (a, b). -/
theorem max_row2 {A B : Nat} (v : FVec Ideal ⟨2, ![A, B]⟩ .f32)
    (h : (⟨2, ![A, B]⟩ : Shape).Reduces [1] ⟨1, ![A]⟩) (hφ : FKind.Formats FTy.f32)
    (hacc : (0xFF800000#32 : BitVec 32) = 0xFF800000#32) (a : Fin A) :
    multiReduction .maximumf [1] ⟨1, ![A]⟩ v 0xFF800000#32 h hφ hacc (ix1 a)
      = (Finset.univ : Finset (Fin B)).fold max (⊥ : EReal) (fun k => v (ix2 a k)) := by
  refine (Ideal.multiReduction_maximumf_single v 0xFF800000#32 h hφ hacc (ix1 a)).trans ?_
  show (Finset.univ : Finset (Fin B)).fold max (Ideal.ofBits .f32 0xFF800000#32) _ = _
  rw [ofBits_neg_inf_f32]
  refine congrArg (fun f => (Finset.univ : Finset (Fin B)).fold max (⊥ : EReal) f) ?_
  funext k
  refine congrArg v ?_
  funext d
  apply Fin.ext
  match d with
  | ⟨0, _⟩ => rfl
  | ⟨1, _⟩ => rfl

/-- A per-row statistic `[A]` laid out as a column `[A, 1]` and repeated along the row to `[A, B]`: entry (a, b) is the
    statistic of row a. -/
theorem stat_bcast_apply {α : Type} {A B : Nat} (x : (⟨1, ![A]⟩ : Shape).Idx → α)
    (hc : (⟨1, ![A]⟩ : Shape).ShapeCasts ⟨2, ![A, 1]⟩) (hb : (⟨2, ![A, 1]⟩ : Shape).Broadcasts ⟨2, ![A, B]⟩)
    (a : Fin A) (b : Fin B) :
    broadcastTo ⟨2, ![A, B]⟩ (shapeCast ⟨2, ![A, 1]⟩ x hc) hb (ix2 a b) = x (ix1 a) := by
  rw [Cert.LibOuterSum.bcast_col_apply, Cert.LibOuterSum.col_of_vec_apply]

end Cert.LibRowReduce

end
-- ==== Proof.LibColSum.lean ====
/-
  Column sums: a lane reduction of a matrix [A, B] over its FIRST axis leaves a vector [B] whose entry b is the sum over
  the rows a of the entries (a, b). With B = 1 this is the total of a single column, which is how a kernel adds up a
  per-row quantity it keeps as a [A, 1] column. At the extended reals, for any extents; the reduction's accumulator is
  the neutral word 0.0, so no initial term appears. (The twin along a row is a row sum.)
-/
import Idealize.ShloMosaic.PureOps.Ideal.Laws
import Idealize.ShloMosaic.Lib.ValueIdx

noncomputable section

namespace Cert.LibColSum

open Idealize.ShloMosaic Idealize.ShloMosaic.ValueIdx

/-- Summing a matrix down its columns: entry b is the sum over a of the entries (a, b). The hypothesis on the
    accumulator word is typed as a printed program carries it (0.0 = 0.0). -/
theorem sum_col2 {A B : Nat} (v : FVec Ideal ⟨2, ![A, B]⟩ .f32)
    (h : (⟨2, ![A, B]⟩ : Shape).Reduces [0] ⟨1, ![B]⟩) (hφ : FKind.Formats FTy.f32)
    (hacc : (0x00000000#32 : BitVec 32) = 0x00000000#32) (b : Fin B) :
    multiReduction .add [0] ⟨1, ![B]⟩ v 0x00000000#32 h hφ hacc (ix1 b) = ∑ k : Fin A, v (ix2 k b) := by
  refine (Ideal.multiReduction_add_single v 0x00000000#32 h hφ hacc (ix1 b)).trans ?_
  refine Finset.sum_congr rfl fun k _ => congrArg v ?_
  funext d
  apply Fin.ext
  match d with
  | ⟨0, _⟩ => rfl
  | ⟨1, _⟩ => rfl

end Cert.LibColSum

end
-- ==== Proof.BlockTotal.lean ====
/-
  The body's arithmetic read at the extended reals. A block is 4096 rows of the distances with the rows' two labels
  as [4096, 1] columns. Row r of the per-sample vector is the loss of that row's sample: the row's hinges are
  max(1 − d, 0) entry by entry, their lane sum is H, columns 0 and 1 of the block and of the hinges are d₀, d₁,
  hinge d₀, hinge d₁, and the nested selects on the label words choose among (d₀ + H) − hinge d₀, (d₁ + H) − hinge d₁,
  the unknown-doctor hinge and 0. The accumulate step adds the column sum of that vector — the block's total — to the
  1×1 value it is given; the reset value is the 1×1 zero.
-/
import proofs.«152789_j16913581212137_2_alg».proof.Proof.Gen.KernelIdeal.Skeleton
import proofs.«152789_j16913581212137_2_alg».proof.Proof.PerSample
import proofs.«152789_j16913581212137_2_alg».proof.Proof.LibOuterSum
import proofs.«152789_j16913581212137_2_alg».proof.Proof.LibRowReduce
import proofs.«152789_j16913581212137_2_alg».proof.Proof.LibColSum
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.Loss.Kernel

open Cert.KernelIdeal Cert.KernelIdeal.Gen

/-- Column 0 of a block, cut as a [4096, 1] slice: row r reads the block's entry (r, 0). -/
theorem col0_apply (v : FVec Ideal S4096x16 .f32) (h : S4096x16.Slices ![0, 0] S4096x1) (r : Fin 4096) (u : Fin 1) :
    extractStridedSlice S4096x1 ![0, 0] v h (ix2 r u) = v (ix2 r (0 : Fin 16)) :=
  extractStridedSlice_apply ![0, 0] v h (ix2 r u) (ix2 r (0 : Fin 16)) (fun a => match a with
    | ⟨0, _⟩ => by show r.val = 0 + r.val; omega
    | ⟨1, _⟩ => by show (0 : Nat) = 0 + u.val; omega)

/-- Column 1 of a block, cut as a [4096, 1] slice: row r reads the block's entry (r, 1). -/
theorem col1_apply (v : FVec Ideal S4096x16 .f32) (h : S4096x16.Slices ![0, 1] S4096x1) (r : Fin 4096) (u : Fin 1) :
    extractStridedSlice S4096x1 ![0, 1] v h (ix2 r u) = v (ix2 r (1 : Fin 16)) :=
  extractStridedSlice_apply ![0, 1] v h (ix2 r u) (ix2 r (1 : Fin 16)) (fun a => match a with
    | ⟨0, _⟩ => by show r.val = 0 + r.val; omega
    | ⟨1, _⟩ => by show (1 : Nat) = 1 + u.val; omega)

/-- The lane sum of a block along its rows, kept as a [4096, 1] column: row r reads the sum of row r's entries. -/
theorem rowSumCol_apply (v : FVec Ideal S4096x16 .f32) (hr : S4096x16.Reduces [1] S4096) (hφ : FKind.Formats FTy.f32)
    (hacc : (0x00000000#32 : BitVec 32) = 0x00000000#32) (hc : S4096.ShapeCasts S4096x1) (r : Fin 4096) (u : Fin 1) :
    shapeCast S4096x1 (multiReduction .add [1] S4096 v 0x00000000#32 hr hφ hacc) hc (ix2 r u) = ∑ k : Fin 16, v (ix2 r k) :=
  (Cert.LibOuterSum.col_of_vec_apply _ hc r u).trans (Cert.LibRowReduce.sum_row2 v hr hφ hacc r)

/-- The per-sample vector of a block at row r is the loss of that row's sample. -/
theorem perSample_apply (v3 : Vec Ideal S4096x16 .f32) (v4 v6 : Vec Ideal S4096x1 .i32) (r : Fin 4096) (u : Fin 1) :
    k0_pay3 (F := Ideal) v3 v4 v6 (ix2 r u)
      = sample (fun k => v3 (ix2 r k)) (v4 (ix2 r (0 : Fin 1))) (v6 (ix2 r (0 : Fin 1))) := by
  obtain rfl : u = 0 := Subsingleton.elim _ _
  unfold k0_pay3
  simp only [select_apply, shapeCast_self, subf_apply, addf_apply, col0_apply, col1_apply, broadcast_apply]
  -- the row's sum of hinges, in the program's own spelling of the lane sum
  have eS : shapeCast S4096x1 (multiReduction (F := Ideal) FKind.add [1] S4096
        (maximumf (subf (broadcast S4096x16 (FloatOps.ofBits FTy.f32 0x3F800000#32)) v3)
          (broadcast S4096x16 (FloatOps.ofBits FTy.f32 0x00000000#32)))
        0x00000000#32 reduces_S4096x16_S4096 (.inl rfl) rfl) shapeCasts_S4096_S4096x1 (ix2 r (0 : Fin 1))
      = ∑ k : Fin 16, hinge (v3 (ix2 r k)) := rowSumCol_apply _ _ _ _ _ r 0
  rw [eS]
  rfl

/-- The total of a block: the sum of its 4096 samples' losses. -/
def blockSum (x0 : Vec Ideal S4096x16 .f32) (x1 x2 : Vec Ideal S4096x1 .i32) : EReal :=
  ∑ r : Fin 4096, sample (fun k => x0 (ix2 r k)) (x1 (ix2 r (0 : Fin 1))) (x2 (ix2 r (0 : Fin 1)))

/-- The reset value is the zero block. -/
theorem reset_apply (j : S1x1.Idx) : k0_pay2 (F := Ideal) j = 0 := by
  unfold k0_pay2
  simp only [shapeCast_self, broadcast_apply]
  exact Ideal.ofBits_zero_f32

/-- The accumulate step: at the block's one index, the value given plus the column sum of the vector. -/
theorem accumulate_apply (v : FVec Ideal S4096x1 .f32) (prev : Vec Ideal S1x1 .f32) (j : S1x1.Idx) :
    k0_pay1 (F := Ideal) v prev j = prev j + ∑ r : Fin 4096, v (ix2 r (0 : Fin 1)) := by
  obtain ⟨a, b, rfl⟩ : ∃ (a b : Fin 1), j = ix2 a b := ⟨j 0, j 1, eq_ix2 j⟩
  obtain rfl : a = 0 := Subsingleton.elim _ _
  obtain rfl : b = 0 := Subsingleton.elim _ _
  unfold k0_pay1
  simp only [shapeCast_self, addf_apply]
  have eC : shapeCast S1x1 (multiReduction (F := Ideal) FKind.add [0] S1 v 0x00000000#32 reduces_S4096x1_S1 (.inl rfl) rfl)
        shapeCasts_S1_S1x1 (ix2 (0 : Fin 1) (0 : Fin 1)) = ∑ r : Fin 4096, v (ix2 r (0 : Fin 1)) :=
    (Cert.LibOuterSum.col_of_vec_apply _ shapeCasts_S1_S1x1 (0 : Fin 1) (0 : Fin 1)).trans
      (Cert.LibColSum.sum_col2 v _ _ _ (0 : Fin 1))
  rw [eC]

/-- One point's step: the value given plus the block's total. -/
theorem step_apply (x0 : Vec Ideal S4096x16 .f32) (x1 x2 : Vec Ideal S4096x1 .i32) (prev : Vec Ideal S1x1 .f32)
    (j : S1x1.Idx) : k0_pay1 (F := Ideal) (k0_pay3 x0 x1 x2) prev j = prev j + blockSum x0 x1 x2 := by
  rw [accumulate_apply]
  refine congrArg (prev j + ·) ?_
  exact Finset.sum_congr rfl fun r _ => perSample_apply x0 x1 x2 r 0

end Cert.Loss.Kernel

end
-- ==== Proof.GridTotal.lean ====
/-
  The accumulator over the grid. Point 0 resets the accumulator to zero and adds block 0's total; every later point
  adds its block's total to what the point before left; the output block is a copy of the accumulator at every
  point. So after point n both hold the sum of the totals of blocks 0 … n — by induction on the point, never by
  listing the 1024 points. Here the blocks are still the windows' blocks as the region finds them; reading them as
  rows of the argument arrays comes after.
-/
import proofs.«152789_j16913581212137_2_alg».proof.Proof.Gen.KernelIdeal.Frame
import proofs.«152789_j16913581212137_2_alg».proof.Proof.PointValues
import proofs.«152789_j16913581212137_2_alg».proof.Proof.BlockTotal

noncomputable section

open Idealize.ShloMosaic Idealize.ShloMosaic.TcCoe Idealize.SL.Sem Idealize.ShloMosaic.ValueIdx

namespace Cert.Loss.Kernel

open Cert.KernelIdeal Cert.KernelIdeal.Gen

variable (m : (ℓ : Loc nD τ sig) → Buf (Elt Ideal) ℓ)

/-- The total of the block the windows hand the body at point t. -/
def pointSum (c : Dev nD) (t : Fin cfg0.N) : EReal :=
  blockSum (iblk m c 0 t) (iblk m c 1 t) (iblk m c 2 t)

/-- The sum of the totals of blocks 0 … n. -/
def running (c : Dev nD) : (n : ℕ) → n < cfg0.N → EReal
  | 0, h => pointSum m c ⟨0, h⟩
  | n + 1, h => running c n (Nat.lt_of_succ_lt h) + pointSum m c ⟨n + 1, h⟩

/-- At the first point: output and accumulator are the step applied to the zero block. -/
theorem point_first (c : Dev nD) (t : Fin cfg0.N) (h0 : t.val % 1024 = 0) :
    outsAt0 m c t.val t.isLt
      = (k0_pay1 (k0_pay3 (iblk m c 0 t) (iblk m c 1 t) (iblk m c 2 t)) (k0_pay2 (F := Ideal)),
         k0_pay1 (k0_pay3 (iblk m c 0 t) (iblk m c 1 t) (iblk m c 2 t)) (k0_pay2 (F := Ideal))) :=
  (outsAt0_A m c t h0).trans (congrArg₂ Prod.mk
    (out_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t))
    (acc_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)))

/-- At a later point: the step applied to what the point before left in the accumulator. -/
theorem point_later (c : Dev nD) (t : Fin cfg0.N) (h0 : ¬t.val % 1024 = 0) :
    outsAt0 m c t.val t.isLt
      = (k0_pay1 (k0_pay3 (iblk m c 0 t) (iblk m c 1 t) (iblk m c 2 t))
           (outsAt0 m c (t.val - 1) (Nat.lt_of_le_of_lt (Nat.sub_le _ _) t.isLt)).2,
         k0_pay1 (k0_pay3 (iblk m c 0 t) (iblk m c 1 t) (iblk m c 2 t))
           (outsAt0 m c (t.val - 1) (Nat.lt_of_le_of_lt (Nat.sub_le _ _) t.isLt)).2) :=
  (outsAt0_B m c t h0).trans (congrArg₂ Prod.mk
    (out_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2)
    (acc_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2))

/-- After point n the output block and the accumulator both hold the sum of the totals of blocks 0 … n. -/
theorem outsAt_eq (c : Dev nD) : ∀ (n : ℕ) (h : n < cfg0.N),
    outsAt0 m c n h = ((fun _ => running m c n h : Vec Ideal S1x1 .f32), (fun _ => running m c n h : Vec Ideal S1x1 .f32))
  | 0, h => by
    refine (point_first m c ⟨0, h⟩ rfl).trans ?_
    have e : k0_pay1 (F := Ideal) (k0_pay3 (iblk m c 0 ⟨0, h⟩) (iblk m c 1 ⟨0, h⟩) (iblk m c 2 ⟨0, h⟩)) (k0_pay2 (F := Ideal))
        = fun _ => running m c 0 h :=
      funext fun j => by
        refine (step_apply (iblk m c 0 ⟨0, h⟩) (iblk m c 1 ⟨0, h⟩) (iblk m c 2 ⟨0, h⟩) (k0_pay2 (F := Ideal)) j).trans ?_
        rw [reset_apply, zero_add]; rfl
    exact congrArg₂ Prod.mk e e
  | n + 1, h => by
    have hN : cfg0.N = 1024 := N_0
    have hB : ¬(⟨n + 1, h⟩ : Fin cfg0.N).val % 1024 = 0 := by dsimp only; omega
    refine (point_later m c ⟨n + 1, h⟩ hB).trans ?_
    have ih := outsAt_eq c n (Nat.lt_of_succ_lt h)
    have e : k0_pay1 (F := Ideal) (k0_pay3 (iblk m c 0 ⟨n + 1, h⟩) (iblk m c 1 ⟨n + 1, h⟩) (iblk m c 2 ⟨n + 1, h⟩))
          (outsAt0 m c n (Nat.lt_of_succ_lt h)).2
        = fun _ => running m c (n + 1) h :=
      funext fun j => by
        refine (step_apply (iblk m c 0 ⟨n + 1, h⟩) (iblk m c 1 ⟨n + 1, h⟩) (iblk m c 2 ⟨n + 1, h⟩)
          (outsAt0 m c n (Nat.lt_of_succ_lt h)).2 j).trans ?_
        rw [ih]; rfl
    exact congrArg₂ Prod.mk e e

end Cert.Loss.Kernel

end
-- ==== Proof.BlockReads.lean ====
/-
  The blocks the windows hand the body are rows of the argument arrays. Window 0 stages the distances [B, 16] in
  blocks of 4096 rows: at grid point t its block index is (t, 0), so row r of the block is row 4096·t + r of the
  array. Windows 1 and 2 stage the two label vectors after the host has reshaped each [B] to a column [B, 1], in
  blocks of 4096 rows of that column: entry (r, 0) of the block at point t is entry 4096·t + r of the label vector.
  No host operation before the region touches the distances.
-/
import proofs.«152789_j16913581212137_2_alg».proof.Proof.Gen.KernelIdeal.Frame
import proofs.«152789_j16913581212137_2_alg».proof.Proof.LibOuterSum
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.Loss.Kernel

open Cert.KernelIdeal Cert.KernelIdeal.Gen

variable (m : (ℓ : Loc nD τ sig) → Buf (Elt Ideal) ℓ)

/-- The three input windows' block index at point t is (t, 0): decided once over the grid. -/
theorem index_dist : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index_doc : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index_real : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- The doctor labels as the region finds them: the argument vector reshaped to a column. -/
theorem V_doc (c : Dev nD) : (V m c main_v0 : S4194304x1.Idx → BitVec 32)
    = shapeCast S4194304x1 (m ((c : Thread nD τ).loc main_arg1)) shapeCasts_S4194304_S4194304x1 := by
  show StableHlo.after hostOps0 (fun b => m (c, b)) (Proc.devRef .tc main_v0) = _
  after_results
  rfl

/-- The real labels as the region finds them: the argument vector reshaped to a column. -/
theorem V_real (c : Dev nD) : (V m c main_v1 : S4194304x1.Idx → BitVec 32)
    = shapeCast S4194304x1 (m ((c : Thread nD τ).loc main_arg2)) shapeCasts_S4194304_S4194304x1 := by
  show StableHlo.after hostOps0 (fun b => m (c, b)) (Proc.devRef .tc main_v1) = _
  after_results
  rfl

/-- Row r of the distances' block at point t is row 4096·t + r of the array. -/
theorem dist_read (c : Dev nD) (t : Fin cfg0.N) (r : Fin 4096) (k : Fin 16) (n : Fin 4194304)
    (hn : n.val = t.val * 4096 + r.val) :
    (iblk m c 0 t : Vec Ideal S4096x16 .f32) (ix2 r k) = m ((c : Thread nD τ).loc main_arg0) (ix2 n k) := by
  unfold iblk
  rw [View.read_apply]
  show V m c main_arg0 _ = _
  rw [V_main_arg0]
  refine congrArg _ (funext fun a => Fin.ext ?_)
  match a with
  | ⟨0, _⟩ =>
    show win0_0.index t (0 : Fin 2) * 4096 + 1 * r.val = n.val
    rw [(index_dist t).1]; omega
  | ⟨1, _⟩ =>
    show win0_0.index t (1 : Fin 2) * 16 + 1 * k.val = k.val
    rw [(index_dist t).2]; omega

/-- Entry (r, 0) of the doctor labels' block at point t is entry 4096·t + r of the argument vector. -/
theorem doc_read (c : Dev nD) (t : Fin cfg0.N) (r : Fin 4096) (n : Fin 4194304) (hn : n.val = t.val * 4096 + r.val) :
    (iblk m c 1 t : Vec Ideal S4096x1 .i32) (ix2 r (0 : Fin 1)) = m ((c : Thread nD τ).loc main_arg1) (ix1 n) := by
  unfold iblk
  rw [View.read_apply]
  show V m c main_v0 _ = _
  rw [V_doc]
  refine Eq.trans (congrArg _ (funext fun a => Fin.ext ?_)) (Cert.LibOuterSum.col_of_vec_apply _ _ n (0 : Fin 1))
  match a with
  | ⟨0, _⟩ =>
    show win0_1.index t (0 : Fin 2) * 4096 + 1 * r.val = n.val
    rw [(index_doc t).1]; omega
  | ⟨1, _⟩ =>
    show win0_1.index t (1 : Fin 2) * 1 + 1 * 0 = 0
    rw [(index_doc t).2]

/-- Entry (r, 0) of the real labels' block at point t is entry 4096·t + r of the argument vector. -/
theorem real_read (c : Dev nD) (t : Fin cfg0.N) (r : Fin 4096) (n : Fin 4194304) (hn : n.val = t.val * 4096 + r.val) :
    (iblk m c 2 t : Vec Ideal S4096x1 .i32) (ix2 r (0 : Fin 1)) = m ((c : Thread nD τ).loc main_arg2) (ix1 n) := by
  unfold iblk
  rw [View.read_apply]
  show V m c main_v1 _ = _
  rw [V_real]
  refine Eq.trans (congrArg _ (funext fun a => Fin.ext ?_)) (Cert.LibOuterSum.col_of_vec_apply _ _ n (0 : Fin 1))
  match a with
  | ⟨0, _⟩ =>
    show win0_2.index t (0 : Fin 2) * 4096 + 1 * r.val = n.val
    rw [(index_real t).1]; omega
  | ⟨1, _⟩ =>
    show win0_2.index t (1 : Fin 2) * 1 + 1 * 0 = 0
    rw [(index_real t).2]

end Cert.Loss.Kernel

end
-- ==== Proof.LibTileSum.lean ====
/-
  A sum over an axis of extent T·B taken tile by tile: the sum over all n < T·B of f n is the sum over the tiles t < T
  of the sum over the positions b < B inside the tile of f (t·B + b). A kernel that walks an axis in blocks and
  accumulates per block computes the right side; a whole-array reduction computes the left. In any commutative
  monoid (at the extended reals no finiteness is needed: only the order of addition changes).
-/
import Mathlib.Algebra.BigOperators.Fin
import Mathlib.Logic.Equiv.Fin.Basic

namespace Cert.LibTileSum

open Finset

/-- Position b of tile t on an axis of T tiles of B positions. -/
def tileIdx {T B : Nat} (t : Fin T) (b : Fin B) : Fin (T * B) :=
  ⟨t.val * B + b.val, by
    have ht := t.isLt; have hb := b.isLt
    have h0 : (t.val + 1) * B = t.val * B + B := Nat.succ_mul t.val B
    have h1 : t.val * B + b.val < (t.val + 1) * B := by rw [h0]; omega
    exact lt_of_lt_of_le h1 (Nat.mul_le_mul_right B ht)⟩

@[simp] theorem tileIdx_val {T B : Nat} (t : Fin T) (b : Fin B) : (tileIdx t b).val = t.val * B + b.val := rfl

/-- The sum over the whole axis is the sum over tiles of the sums inside each tile. -/
theorem sum_tiles {M : Type*} [AddCommMonoid M] {T B : Nat} (f : Fin (T * B) → M) :
    ∑ n : Fin (T * B), f n = ∑ t : Fin T, ∑ b : Fin B, f (tileIdx t b) := by
  rw [← Equiv.sum_comp (finProdFinEquiv (m := T) (n := B)) f, Fintype.sum_prod_type]
  refine Finset.sum_congr rfl fun t _ => Finset.sum_congr rfl fun b _ => ?_
  congr 1
  apply Fin.ext
  show b.val + B * t.val = t.val * B + b.val
  rw [Nat.mul_comm B t.val, Nat.add_comm]

end Cert.LibTileSum
-- ==== Proof.GridIsTotal.lean ====
/-
  The grid's blocks tile the batch. Block t holds rows 4096·t … 4096·t + 4095 of the batch, the 1024 blocks are all of
  its 4,194,304 rows, and a sum over the batch taken block by block is the sum over the batch: on the extended reals
  addition is commutative and associative (a commutative monoid), which is all that regrouping a finite sum needs.
  So what the accumulator holds after the last grid point is the batch's total.
-/
import proofs.«152789_j16913581212137_2_alg».proof.Proof.GridTotal
import proofs.«152789_j16913581212137_2_alg».proof.Proof.BlockReads
import proofs.«152789_j16913581212137_2_alg».proof.Proof.LibTileSum

noncomputable section

open Idealize.ShloMosaic Idealize.ShloMosaic.TcCoe Idealize.SL.Sem Idealize.ShloMosaic.ValueIdx

namespace Cert.Loss.Kernel

open Cert.KernelIdeal Cert.KernelIdeal.Gen Cert.LibTileSum

variable (m : (ℓ : Loc nD τ sig) → Buf (Elt Ideal) ℓ)

/-- Sample n's loss read off the argument arrays on core c. -/
def sampleAt (c : Dev nD) (n : Fin 4194304) : EReal :=
  sample (fun k => m ((c : Thread nD τ).loc main_arg0) (ix2 n k)) (m ((c : Thread nD τ).loc main_arg1) (ix1 n))
    (m ((c : Thread nD τ).loc main_arg2) (ix1 n))

/-- The total of the block at point t is the sum of the losses of rows 4096·t + r of the batch. -/
theorem pointSum_eq (c : Dev nD) (t : Fin cfg0.N) (t' : Fin 1024) (ht : t'.val = t.val) :
    pointSum m c t = ∑ r : Fin 4096, sampleAt m c (tileIdx (T := 1024) (B := 4096) t' r) := by
  unfold pointSum blockSum sampleAt
  refine Finset.sum_congr rfl fun r _ => ?_
  have hn : (tileIdx (T := 1024) (B := 4096) t' r).val = t.val * 4096 + r.val := by rw [tileIdx_val, ht]
  rw [doc_read m c t r _ hn, real_read m c t r _ hn]
  refine congrArg (fun d => sample d _ _) (funext fun k => ?_)
  exact dist_read m c t r k _ hn

/-- Point s's total, zero past the grid's end: the summand of the running total. -/
def pointSumN (c : Dev nD) (s : ℕ) : EReal := if h : s < cfg0.N then pointSum m c ⟨s, h⟩ else 0

/-- The running total is the sum of the points' totals so far. -/
theorem running_eq_sum (c : Dev nD) : ∀ (n : ℕ) (h : n < cfg0.N),
    running m c n h = ∑ s ∈ Finset.range (n + 1), pointSumN m c s
  | 0, h => by
    rw [Finset.sum_range_one]
    unfold pointSumN
    rw [dif_pos h]
    rfl
  | n + 1, h => by
    rw [Finset.sum_range_succ, ← running_eq_sum c n (Nat.lt_of_succ_lt h)]
    unfold pointSumN
    rw [dif_pos h]
    rfl

/-- After the last grid point the accumulator holds the batch's total. -/
theorem running_last (c : Dev nD) (h : 1023 < cfg0.N) :
    running m c 1023 h = total (m ((c : Thread nD τ).loc main_arg0)) (m ((c : Thread nD τ).loc main_arg1))
      (m ((c : Thread nD τ).loc main_arg2)) := by
  have hN : cfg0.N = 1024 := N_0
  rw [running_eq_sum, Finset.sum_range]
  show _ = ∑ n : Fin (1024 * 4096), sampleAt m c n
  rw [sum_tiles (T := 1024) (B := 4096)]
  refine Finset.sum_congr rfl fun t' _ => ?_
  unfold pointSumN
  rw [dif_pos (by have := t'.isLt; omega)]
  exact pointSum_eq m c ⟨t'.val, by have := t'.isLt; omega⟩ t' rfl

end Cert.Loss.Kernel

end
-- ==== Proof.KernelMean.lean ====
/-
  The kernel's result. The 1×1 output block is written back to its 1×1 array once, after the last grid point, when it
  holds the batch's total; that block is the whole array, so the array ends holding the total. The host then reshapes
  the 1×1 array to a scalar and divides it by 4194304.0: the mean loss. The three argument arrays end as they began.
-/
import proofs.«152789_j16913581212137_2_alg».proof.Proof.GridIsTotal
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.Loss.Kernel

open Cert.KernelIdeal Cert.KernelIdeal.Gen

variable (m : (ℓ : Loc nD τ sig) → Buf (Elt Ideal) ℓ) (ρ : Dev nD → PrngReg)

/-- The batch's total on core c, off the argument arrays. -/
abbrev totalAt (c : Dev nD) : EReal :=
  total (m ((c : Thread nD τ).loc main_arg0)) (m ((c : Thread nD τ).loc main_arg1)) (m ((c : Thread nD τ).loc main_arg2))

/-- The 1×1 array holding the total. -/
abbrev totalArr (c : Dev nD) : Buf (Elt Ideal) ((c : Thread nD τ).loc main_v2) := fun _ => totalAt m c

theorem lastPoint : 1023 < cfg0.N := by rw [show cfg0.N = 1024 from N_0]; decide

/-- At the last point the running total is the batch's total. -/
theorem running_at (c : Dev nD) (n : ℕ) (h : n < cfg0.N) (hn : n = 1023) : running m c n h = totalAt m c := by
  subst hn; exact running_last m c h

/-- A constant 1×1 block, written back at any point, is the constant 1×1 array read through that point's block. -/
theorem const_block (c : Dev nD) (t : Fin cfg0.N) (T : EReal) :
    (cfg0.win 3).cut (grid0.coords t) ((fun _ => T : Vec Ideal S1x1 .f32))
      = ((cfg0.win 3).blk t).view.read (Elt Ideal) ((fun _ => T : Buf (Elt Ideal) ((c : Thread nD τ).loc main_v2))) := by
  funext y
  rw [View.read_apply]
  rfl

/-- The one write-back, at the last point, writes the total. -/
theorem flushed_eq (c : Dev nD) (t : Fin cfg0.N) (hf : (cfg0.win 3).flush t = true) :
    (dats m 0 c).flushed 3 t = ((cfg0.win 3).blk t).view.read (Elt Ideal) (totalArr m c) := by
  have hN : cfg0.N = 1024 := N_0
  have h3 : t.val = 1023 := by have := (flush0_3 t).mp hf; have := t.isLt; omega
  show (cfg0.win 3).cut (grid0.coords t) ((dats m 0 c).after 3 t) = _
  rw [after0_3, outsAt_eq, running_at m c t.val t.isLt h3]
  dsimp only
  exact const_block c t (totalAt m c)

/-- The last point's block is the whole 1×1 array. -/
theorem covered (c : Dev nD) (i : ((cfg0.win 3).arr.view.loc (c.tc : Thread nD τ)).2.ty.Idx) :
    ∃ t : Fin cfg0.N, (cfg0.win 3).flush t = true ∧ i ∈ ((cfg0.win 3).blk t).view.set := by
  refine ⟨⟨1023, lastPoint⟩, (flush0_3 _).mpr rfl, ?_⟩
  show i ∈ ((View.whole main_v2).slice (win0_3.rect ⟨1023, lastPoint⟩)).set
  rw [View.set_slice_whole, Rect.mem_set_unit]
  intro a
  have h0 : (i 0 : Nat) < 1 := (i 0).isLt
  have h1 : (i 1 : Nat) < 1 := (i 1).isLt
  match a with
  | ⟨0, _⟩ =>
    show win0_3.index ⟨1023, lastPoint⟩ 0 * win0_3.size 0 ≤ (i 0 : Nat)
      ∧ (i 0 : Nat) < win0_3.index ⟨1023, lastPoint⟩ 0 * win0_3.size 0 + win0_3.xsize (grid0.coords ⟨1023, lastPoint⟩) 0
    rw [show win0_3.index ⟨1023, lastPoint⟩ 0 * win0_3.size 0 = 0 from by decide +kernel,
      show win0_3.xsize (grid0.coords ⟨1023, lastPoint⟩) 0 = 1 from by decide +kernel]
    omega
  | ⟨1, _⟩ =>
    show win0_3.index ⟨1023, lastPoint⟩ 1 * win0_3.size 1 ≤ (i 1 : Nat)
      ∧ (i 1 : Nat) < win0_3.index ⟨1023, lastPoint⟩ 1 * win0_3.size 1 + win0_3.xsize (grid0.coords ⟨1023, lastPoint⟩) 1
    rw [show win0_3.index ⟨1023, lastPoint⟩ 1 * win0_3.size 1 = 0 from by decide +kernel,
      show win0_3.xsize (grid0.coords ⟨1023, lastPoint⟩) 1 = 1 from by decide +kernel]
    omega

/-- So the output array ends holding the total. -/
theorem final_out (c : Dev nD) : (dats m 0 c).arrAt 3 cfg0.N = totalArr m c :=
  (dats m 0 c).arrAt_eq_of_cover 3 (totalArr m c) (flushed_eq m c) (covered c)

/-- The host tail: the array reshaped to a scalar and divided by the batch size is the mean loss. -/
theorem tail_eq (c : Dev nD) :
    Pipeline.afterTail₀ cfgs (dats m) 0 (V0 m) [hostOps1] c main_v4
      = meanLoss (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  rw [(Pipeline.withArrays_arr spec0 launch0.win.arr_inj c _ _ 3).trans (final_out m c)]
  rfl

/-- The kernel's run: the result at the mean loss, the arguments unchanged. -/
theorem run : θ_run defs (onTc (τ := τ) (main (F := Ideal))) ⟨m, fun _ => 0, ρ⟩ fun r => ∀ c : Dev nD,
      r.2.mem ((c.tc : Thread nD τ).loc main_v4)
        = meanLoss (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.Loss.Kernel

end
-- ==== Proof.lean ====
/-
  A hinge loss with label-dependent branching, averaged over a batch of 4,194,304 samples of 16 distances each.

  Per sample, with H the sum of the row's hinges max(1 − d, 0): the loss is (d₀ + H) − hinge d₀ when the doctor's
  label is 0, (d₁ + H) − hinge d₁ when it is 1, one of hinge d₁ / hinge d₀ / 0 by the real label when it is 2, and 0
  otherwise. The result is the batch's total divided by the batch size.

  The reference computes this in one piece: the per-sample vector over the whole batch, one sum, one division. The
  kernel walks the batch in 1024 blocks of 4096 rows, keeps a 1×1 accumulator that it zeroes at the first block, adds
  each block's total to it, copies it to a 1×1 output that is written back after the last block, and the host divides
  by the batch size. Per sample the two apply the same operations in the same order; the only difference is that the
  kernel sums the batch block by block. On the extended reals addition is commutative and associative, so the two
  sums are equal with no assumption on the inputs: the precondition (every distance finite) is not used by the value
  claim. The idealization rewrote nothing, so the kernel and its idealized form are one program text.
-/
import proofs.«152789_j16913581212137_2_alg».proof.Defs
import proofs.«152789_j16913581212137_2_alg».proof.Proof.Gen.Kernel
import proofs.«152789_j16913581212137_2_alg».proof.Proof.Gen.Kernel.Frame
import proofs.«152789_j16913581212137_2_alg».proof.Proof.Gen.KernelIdeal
import proofs.«152789_j16913581212137_2_alg».proof.Proof.Gen.KernelIdeal.Frame
import proofs.«152789_j16913581212137_2_alg».proof.Proof.Gen.ReferenceIdeal
import proofs.«152789_j16913581212137_2_alg».proof.Proof.Gen.ReferenceIdeal.Run
import proofs.«152789_j16913581212137_2_alg».proof.Proof.Gen.ReferenceIdeal.Read
import proofs.«152789_j16913581212137_2_alg».proof.Proof.Gen.Pre_finite_inputs
import proofs.«152789_j16913581212137_2_alg».proof.Proof.ReferenceMean
import proofs.«152789_j16913581212137_2_alg».proof.Proof.KernelMean

noncomputable section

namespace Cert.Proof

open Idealize.ShloMosaic Idealize.ShloMosaic.TcCoe Idealize.SL.Sem

/-- The kernel runs and leaves its arguments unchanged. -/
theorem frame_kernel : Cert.frame_Kernel := fun m ρ _ => Cert.Kernel.Gen.frame m ρ

/-- So does its idealized form. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end at the mean loss of arguments that agree. -/
theorem algebraic : Cert.algebraic_KernelIdeal_ReferenceIdeal := by
  intro m ρ m' ρ' _ hagree
  refine ⟨fun c => Cert.Loss.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Loss.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v36_eq (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))).trans ?_
  refine (Cert.Loss.Reference.result_eq _ _ _).trans ?_
  show Cert.Loss.meanLoss _ _ _ = Cert.Loss.meanLoss _ _ _
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
